-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x16x4x128x256 : Shape := ⟨5, ![8, 16, 4, 128, 256]⟩
abbrev S8x4x128x256 : Shape := ⟨4, ![8, 4, 128, 256]⟩
abbrev S_ : Shape := ⟨0, ![]⟩

class Facts : Prop where
  bcast_S_S8x16x4x128x256 : S_.BroadcastsInDim S8x16x4x128x256 (![] : Fin 0 → Fin S8x16x4x128x256.rank)
  reducesTo_S8x16x4x128x256_S_d0_1_2_3_4 : S8x16x4x128x256.ReducesTo [0, 1, 2, 3, 4] S_
  h_S_ : 0 < S_.numel
  bcast_S_S8x4x128x256 : S_.BroadcastsInDim S8x4x128x256 (![] : Fin 0 → Fin S8x4x128x256.rank)
  reducesTo_S8x4x128x256_S_d0_1_2_3 : S8x4x128x256.ReducesTo [0, 1, 2, 3] S_

variable [Facts]

def fn {F : FTy → Type} [FloatOps F] (main_arg0 : FVec F S8x16x4x128x256 .f32) (main_arg1 : FVec F S8x4x128x256 .f32) : IVec S_ 1 :=
  let main_v0 : FVec F S8x16x4x128x256 .f32 := Host.absf main_arg0
  let main_cst : FVec F S_ .f32 := constant S_ .f32 0x7F800000#32
  let main_v1 : FVec F S8x16x4x128x256 .f32 := broadcastInDim S8x16x4x128x256 ![] bcast_S_S8x16x4x128x256 main_cst
  let main_v2 : IVec S8x16x4x128x256 1 := cmpf .olt main_v0 main_v1
  let main_c : IVec S_ 1 := constantI S_ 1 1#1
  let main_v3 : IVec S_ 1 := (fun x v => Host.reduce IntOp.andi x v reducesTo_S8x16x4x128x256_S_d0_1_2_3_4 h_S_) main_v2 main_c
  let main_v4 : FVec F S8x4x128x256 .f32 := Host.absf main_arg1
  let main_cst_0 : FVec F S_ .f32 := constant S_ .f32 0x7F800000#32
  let main_v5 : FVec F S8x4x128x256 .f32 := broadcastInDim S8x4x128x256 ![] bcast_S_S8x4x128x256 main_cst_0
  let main_v6 : IVec S8x4x128x256 1 := cmpf .olt main_v4 main_v5
  let main_c_1 : IVec S_ 1 := constantI S_ 1 1#1
  let main_v7 : IVec S_ 1 := (fun x v => Host.reduce IntOp.andi x v reducesTo_S8x4x128x256_S_d0_1_2_3 h_S_) main_v6 main_c_1
  let main_v8 : IVec S_ 1 := andi main_v3 main_v7
  main_v8
-- ==== Kernel.lean ====
abbrev S8x16x4x128x256 : Shape := ⟨5, ![8, 16, 4, 128, 256]⟩
abbrev S8x4x128x256 : Shape := ⟨4, ![8, 4, 128, 256]⟩
abbrev S8x1x1 : Shape := ⟨3, ![8, 1, 1]⟩
abbrev S1x16x1x128x256 : Shape := ⟨5, ![1, 16, 1, 128, 256]⟩
abbrev S1x1x128x256 : Shape := ⟨4, ![1, 1, 128, 256]⟩
abbrev S1x1x1 : Shape := ⟨3, ![1, 1, 1]⟩
abbrev S1x1 : Shape := ⟨2, ![1, 1]⟩
abbrev S16x128x256 : Shape := ⟨3, ![16, 128, 256]⟩
abbrev S128x256 : Shape := ⟨2, ![128, 256]⟩
abbrev S1x128x256 : Shape := ⟨3, ![1, 128, 256]⟩
abbrev S128 : Shape := ⟨1, ![128]⟩
abbrev S128x1 : Shape := ⟨2, ![128, 1]⟩
abbrev S1 : Shape := ⟨1, ![1]⟩
abbrev S_ : Shape := ⟨0, ![]⟩

abbrev nBuf : Space → Nat
  | .hbm => 7
  | .vmem => 7
  | .smem => 0
  | _ => 0

abbrev bufTy : (tb : Table) → Fin (tcTables nBuf tb) → BufTy
  | .hbm, ⟨0, _⟩ => ⟨S8x16x4x128x256, .f32⟩
  | .hbm, ⟨1, _⟩ => ⟨S8x4x128x256, .f32⟩
  | .hbm, ⟨2, _⟩ => ⟨S8x1x1, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .local _ .vmem, ⟨0, _⟩ => ⟨S1x16x1x128x256, .f32⟩
  | .local _ .vmem, ⟨1, _⟩ => ⟨S1x16x1x128x256, .f32⟩
  | .local _ .vmem, ⟨2, _⟩ => ⟨S1x1x128x256, .f32⟩
  | .local _ .vmem, ⟨3, _⟩ => ⟨S1x1x128x256, .f32⟩
  | .local _ .vmem, ⟨4, _⟩ => ⟨S1x1x1, .f32⟩
  | .local _ .vmem, ⟨5, _⟩ => ⟨S1x1x1, .f32⟩
  | .local _ .vmem, ⟨6, _⟩ => ⟨S1x1, .f32⟩
  | _, _ => ⟨S8x16x4x128x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c3_i32 : BitVec 32 := 3#32
  let v155 : BitVec 1 := Scalar.cmpi .eq arg1 c3_i32
  let v156 : BitVec 32 := Scalar.extui v155
  let c0_i32_34 : BitVec 32 := 0#32
  let v157 : BitVec 1 := Scalar.cmpi .ne v156 c0_i32_34
  v157

def cc0_transform_0 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x16x1x128x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x128x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  inb_S1x16x1x128x256_S1x16x1x128x256_0_0_0_0_0 : ∀ a, (![0, 0, 0, 0, 0] : Fin 5 → Nat) a + S1x16x1x128x256.size a ≤ S1x16x1x128x256.size a
  h_S1x16x1x128x256 : 0 < S1x16x1x128x256.numel
  shapeCasts_S1x16x1x128x256_S16x128x256 : S1x16x1x128x256.ShapeCasts S16x128x256
  inb_S1x1x128x256_S1x1x128x256_0_0_0_0 : ∀ a, (![0, 0, 0, 0] : Fin 4 → Nat) a + S1x1x128x256.size a ≤ S1x1x128x256.size a
  h_S1x1x128x256 : 0 < S1x1x128x256.numel
  shapeCasts_S1x1x128x256_S128x256 : S1x1x128x256.ShapeCasts S128x256
  shapeCasts_S128x256_S1x128x256 : S128x256.ShapeCasts S1x128x256
  broadcasts_S1x128x256_S16x128x256 : S1x128x256.Broadcasts S16x128x256
  reduces_S16x128x256_S128x256 : S16x128x256.Reduces [0] S128x256
  slices_S16x128x256_o0_0_0_S1x128x256 : S16x128x256.Slices ![0, 0, 0] S1x128x256
  shapeCasts_S1x128x256_S128x256 : S1x128x256.ShapeCasts S128x256
  slices_S16x128x256_o1_0_0_S1x128x256 : S16x128x256.Slices ![1, 0, 0] S1x128x256
  slices_S16x128x256_o2_0_0_S1x128x256 : S16x128x256.Slices ![2, 0, 0] S1x128x256
  slices_S16x128x256_o3_0_0_S1x128x256 : S16x128x256.Slices ![3, 0, 0] S1x128x256
  slices_S16x128x256_o4_0_0_S1x128x256 : S16x128x256.Slices ![4, 0, 0] S1x128x256
  slices_S16x128x256_o5_0_0_S1x128x256 : S16x128x256.Slices ![5, 0, 0] S1x128x256
  slices_S16x128x256_o6_0_0_S1x128x256 : S16x128x256.Slices ![6, 0, 0] S1x128x256
  slices_S16x128x256_o7_0_0_S1x128x256 : S16x128x256.Slices ![7, 0, 0] S1x128x256
  slices_S16x128x256_o8_0_0_S1x128x256 : S16x128x256.Slices ![8, 0, 0] S1x128x256
  slices_S16x128x256_o9_0_0_S1x128x256 : S16x128x256.Slices ![9, 0, 0] S1x128x256
  slices_S16x128x256_o10_0_0_S1x128x256 : S16x128x256.Slices ![10, 0, 0] S1x128x256
  slices_S16x128x256_o11_0_0_S1x128x256 : S16x128x256.Slices ![11, 0, 0] S1x128x256
  slices_S16x128x256_o12_0_0_S1x128x256 : S16x128x256.Slices ![12, 0, 0] S1x128x256
  slices_S16x128x256_o13_0_0_S1x128x256 : S16x128x256.Slices ![13, 0, 0] S1x128x256
  slices_S16x128x256_o14_0_0_S1x128x256 : S16x128x256.Slices ![14, 0, 0] S1x128x256
  slices_S16x128x256_o15_0_0_S1x128x256 : S16x128x256.Slices ![15, 0, 0] S1x128x256
  reduces_S128x256_S128 : S128x256.Reduces [1] S128
  shapeCasts_S128_S128x1 : S128.ShapeCasts S128x1
  reduces_S128x1_S1 : S128x1.Reduces [0] S1
  shapeCasts_S1_S1x1 : S1.ShapeCasts S1x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S1x1x1_S1x1x1_0_0_0 : ∀ a, (![0, 0, 0] : Fin 3 → Nat) a + S1x1x1.size a ≤ S1x1x1.size a
  h_S1x1x1 : 0 < S1x1x1.numel
  shapeCasts_S1x1x1_S1x1 : S1x1x1.ShapeCasts S1x1
  shapeCasts_S1x1_S1x1x1 : S1x1.ShapeCasts S1x1x1
  reducesTo_S8x1x1_S_d0_1_2 : S8x1x1.ReducesTo [0, 1, 2] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x16x1x128x256.size a ≤ S8x16x4x128x256.size a
  hwx0_0 : ∀ i : grid0.Coords, EltTy.bits .f32 = 32 ∨ (Rect.block (s := S8x16x4x128x256) S1x16x1x128x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x128x256.size a ≤ S8x4x128x256.size a
  hwx0_1 : ∀ i : grid0.Coords, EltTy.bits .f32 = 32 ∨ (Rect.block (s := S8x4x128x256) S1x1x128x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1.size a ≤ S8x1x1.size a
  hwx0_2 : ∀ i : grid0.Coords, EltTy.bits .f32 = 32 ∨ (Rect.block (s := S8x1x1) S1x1x1.size (cc0_transform_2 i) (hinb0_2 i)).WholeWords (EltTy.packing .f32)

variable [Facts₀]

abbrev win0_0 : Pipeline.Window sig grid0 :=
  Pipeline.Window.ofSpec (Memref.whole main_arg0) S1x16x1x128x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1x128x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S8x16x4x128x256 : Shape := ⟨5, ![8, 16, 4, 128, 256]⟩
abbrev S8x4x128x256 : Shape := ⟨4, ![8, 4, 128, 256]⟩
abbrev S8x1x4x128x256 : Shape := ⟨5, ![8, 1, 4, 128, 256]⟩
abbrev S_ : Shape := ⟨0, ![]⟩
abbrev S8x16x1x4x128x256 : Shape := ⟨6, ![8, 16, 1, 4, 128, 256]⟩
abbrev S8x1x16x4x128x256 : Shape := ⟨6, ![8, 1, 16, 4, 128, 256]⟩
abbrev S8x16x16x4x128x256 : Shape := ⟨6, ![8, 16, 16, 4, 128, 256]⟩

abbrev nBuf : Space → Nat
  | .hbm => 27
  | .vmem => 0
  | .smem => 0
  | _ => 0

abbrev bufTy : (tb : Table) → Fin (tcTables nBuf tb) → BufTy
  | .hbm, ⟨0, _⟩ => ⟨S8x16x4x128x256, .f32⟩
  | .hbm, ⟨1, _⟩ => ⟨S8x4x128x256, .f32⟩
  | .hbm, ⟨2, _⟩ => ⟨S8x1x4x128x256, .f32⟩
  | .hbm, ⟨3, _⟩ => ⟨S8x16x4x128x256, .f32⟩
  | .hbm, ⟨4, _⟩ => ⟨S8x16x4x128x256, .f32⟩
  | .hbm, ⟨5, _⟩ => ⟨S8x16x4x128x256, .f32⟩
  | .hbm, ⟨6, _⟩ => ⟨S_, .f32⟩
  | .hbm, ⟨7, _⟩ => ⟨S8x4x128x256, .f32⟩
  | .hbm, ⟨8, _⟩ => ⟨S_, .f32⟩
  | .hbm, ⟨9, _⟩ => ⟨S8x4x128x256, .f32⟩
  | .hbm, ⟨10, _⟩ => ⟨S8x4x128x256, .f32⟩
  | .hbm, ⟨11, _⟩ => ⟨S8x16x1x4x128x256, .f32⟩
  | .hbm, ⟨12, _⟩ => ⟨S8x1x16x4x128x256, .f32⟩
  | .hbm, ⟨13, _⟩ => ⟨S8x16x16x4x128x256, .f32⟩
  | .hbm, ⟨14, _⟩ => ⟨S8x16x16x4x128x256, .f32⟩
  | .hbm, ⟨15, _⟩ => ⟨S8x16x16x4x128x256, .f32⟩
  | .hbm, ⟨16, _⟩ => ⟨S8x16x16x4x128x256, .f32⟩
  | .hbm, ⟨17, _⟩ => ⟨S_, .f32⟩
  | .hbm, ⟨18, _⟩ => ⟨S8x4x128x256, .f32⟩
  | .hbm, ⟨19, _⟩ => ⟨S_, .f32⟩
  | .hbm, ⟨20, _⟩ => ⟨S8x4x128x256, .f32⟩
  | .hbm, ⟨21, _⟩ => ⟨S8x4x128x256, .f32⟩
  | .hbm, ⟨22, _⟩ => ⟨S8x4x128x256, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | _, _ => ⟨S8x16x4x128x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst_1 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_3 : Ref sig .tc := ⟨.hbm, 23, rfl⟩
abbrev main_v17 : Ref sig .tc := ⟨.hbm, 24, rfl⟩
abbrev main_cst_4 : Ref sig .tc := ⟨.hbm, 25, rfl⟩
abbrev main_v18 : Ref sig .tc := ⟨.hbm, 26, rfl⟩

abbrev nD : Nat := 1
abbrev τ : Topo := Topo.v7x

variable {F : FTy → Type} [FloatOps F]

class Facts₀ : Prop where
  bcast_S8x4x128x256_S8x1x4x128x256_0_2_3_4 : S8x4x128x256.BroadcastsInDim S8x1x4x128x256 (![0, 2, 3, 4] : Fin 4 → Fin S8x1x4x128x256.rank)
  bcast_S8x1x4x128x256_S8x16x4x128x256_0_1_2_3_4 : S8x1x4x128x256.BroadcastsInDim S8x16x4x128x256 (![0, 1, 2, 3, 4] : Fin 5 → Fin S8x16x4x128x256.rank)
  reducesTo_S8x16x4x128x256_S8x4x128x256_d1 : S8x16x4x128x256.ReducesTo [1] S8x4x128x256
  h_S_ : 0 < S_.numel
  bcast_S_S8x4x128x256 : S_.BroadcastsInDim S8x4x128x256 (![] : Fin 0 → Fin S8x4x128x256.rank)
  bcast_S8x16x4x128x256_S8x16x1x4x128x256_0_1_3_4_5 : S8x16x4x128x256.BroadcastsInDim S8x16x1x4x128x256 (![0, 1, 3, 4, 5] : Fin 5 → Fin S8x16x1x4x128x256.rank)
  bcast_S8x16x4x128x256_S8x1x16x4x128x256_0_2_3_4_5 : S8x16x4x128x256.BroadcastsInDim S8x1x16x4x128x256 (![0, 2, 3, 4, 5] : Fin 5 → Fin S8x1x16x4x128x256.rank)
  bcast_S8x16x1x4x128x256_S8x16x16x4x128x256_0_1_2_3_4_5 : S8x16x1x4x128x256.BroadcastsInDim S8x16x16x4x128x256 (![0, 1, 2, 3, 4, 5] : Fin 6 → Fin S8x16x16x4x128x256.rank)
  bcast_S8x1x16x4x128x256_S8x16x16x4x128x256_0_1_2_3_4_5 : S8x1x16x4x128x256.BroadcastsInDim S8x16x16x4x128x256 (![0, 1, 2, 3, 4, 5] : Fin 6 → Fin S8x16x16x4x128x256.rank)
  reducesTo_S8x16x16x4x128x256_S8x4x128x256_d1_2 : S8x16x16x4x128x256.ReducesTo [1, 2] S8x4x128x256
  reducesTo_S8x4x128x256_S_d0_1_2_3 : S8x4x128x256.ReducesTo [0, 1, 2, 3] S_

variable [Facts₀]

class Facts : Prop extends Facts₀ where

variable [Facts]
-- ==== Proof.Spec.lean ====
/-
  The continuous ranked probability score of an ensemble forecast, on the extended reals: the function both programs
  compute.

  For predictions `p[b, n, c, h, w]` (an ensemble of 16 members `n`) and observations `g[b, c, h, w]`, the score of one
  pixel is
      cell = (∑ₙ |pₙ − g|) / 16 − (∑ᵢ ∑ⱼ |pᵢ − pⱼ|) / 480,
  the mean distance to the observation minus half the mean distance between two members (480 = 2 · 16 · 15); the
  result is the mean of `cell` over the 8 · 4 · 128 · 256 = 2²⁰ pixels. The three divisors are kept as the f32 words the
  two programs both carry (16.0, 480.0, 1048576.0), so they are never evaluated. The sums are written slab by slab:
  `slab b c` is the sum over the 128 × 256 pixels of one `(b, c)`.
-/
import Idealize.ShloMosaic.PureOps.Ideal
import Idealize.ShloMosaic.Lib.ValueIdx

noncomputable section

open scoped BigOperators

namespace Cert.Crps

open Idealize.ShloMosaic Idealize.ShloMosaic.ValueIdx

/-- The predictions `[8, 16, 4, 128, 256]` and the observations `[8, 4, 128, 256]`, as functions of their index. -/
abbrev Preds := (⟨5, ![8, 16, 4, 128, 256]⟩ : Shape).Idx → EReal
abbrev Obs := (⟨4, ![8, 4, 128, 256]⟩ : Shape).Idx → EReal

/-- `|x|` on the extended reals, as both programs compute it: `max x (−x)`. -/
def dist (x y : EReal) : EReal := max (x - y) (-(x - y))

/-- The score of one pixel from its 16 predictions `P` and its observation `g`. -/
def cell (P : Fin 16 → EReal) (g : EReal) : EReal :=
  Ideal.div (∑ n, dist (P n) g) (Ideal.ofBits .f32 0x41800000#32)
    - Ideal.div (∑ i, ∑ j, dist (P i) (P j)) (Ideal.ofBits .f32 0x43F00000#32)

/-- The pixel `(b, c, r, s)`'s score. -/
def pixel (p : Preds) (g : Obs) (b : Fin 8) (c : Fin 4) (r : Fin 128) (s : Fin 256) : EReal :=
  cell (fun n => p (ix5 b n c r s)) (g (ix4 b c r s))

/-- The sum of the scores over the pixels of slab `(b, c)`, row by row. -/
def slab (p : Preds) (g : Obs) (b : Fin 8) (c : Fin 4) : EReal := ∑ r : Fin 128, ∑ s : Fin 256, pixel p g b c r s

/-- The mean score. -/
def total (p : Preds) (g : Obs) : EReal :=
  Ideal.div (∑ b : Fin 8, ∑ c : Fin 4, slab p g b c) (Ideal.ofBits .f32 0x49800000#32)

/-- The double sum over pairs of members may be taken in either order of the two members. -/
theorem pairs_comm (f : Fin 16 → Fin 16 → EReal) : ∑ i, ∑ n, f n i = ∑ i, ∑ j, f i j := Finset.sum_comm

end Cert.Crps

end
-- ==== Proof.LibSums.lean ====
/-
  Sums over the index set of a small array, written as iterated sums over the coordinates, and three reductions read
  at an index on the extended reals.

  * An index of a rank-1, rank-3 or rank-4 array is the tuple of its coordinates, so a sum over all indices is the
    iterated sum over the coordinate ranges (`sum_idx1`, `sum_idx3`, `sum_idx4`).
  * A host sum that removes the two adjacent axes 1 and 2 of a rank-6 array `[a, n, m, b, c, d]` is, at `(p, q, r, s)`,
    the initial value plus the double sum over the two removed coordinates (`hostSum_axes12_apply`).
  * A vector sum along the leading axis of a rank-3 array `[n, a, b]` is, at `(i, j)`, the sum over the leading
    coordinate (`leadSum3_apply`); along the leading axis of a column `[a, 1]` it is the sum of the column
    (`colSum_apply`).
  * A one-element vector `[1]` viewed as `[1, 1]`, and `[1, 1]` viewed as `[1, 1, 1]`, keep their one entry
    (`shapeCast_1_11_apply`, `shapeCast_11_111_apply`).
  * Unit axes dropped from a block: `[1, n, 1, a, b]` viewed as `[n, a, b]` and `[1, 1, a, b]` viewed as `[a, b]`, read at
    an index (`shapeCast_1n1ab_nab_apply`, `shapeCast_11ab_ab_apply`).
  * One matrix repeated along a new leading axis, `[1, a, b] → [n, a, b]` (`broadcastTo_1ab_nab_apply`), and the chain that
    takes member `k` of a stack `[n, a, b]`, drops and restores its unit axis and repeats it `n` times: at `(m, i, j)` it
    reads the stack at `(k, i, j)` (`memberSpread_apply`).
-/
import Idealize.ShloMosaic.PureOps.Ideal.Laws
import Idealize.ShloMosaic.Lib.Pipeline.Value
import Idealize.ShloMosaic.Lib.ValueIdx
import Idealize.ShloMosaic.Lib.ValueLayout

noncomputable section

open scoped BigOperators

namespace Cert.Sums

open Idealize.ShloMosaic Idealize.ShloMosaic.ValueIdx

section IndexSums
variable {M : Type*} [AddCommMonoid M]

/-- A sum over the indices of a vector is the sum over its one coordinate. -/
theorem sum_idx1 {n : ℕ} (f : (⟨1, ![n]⟩ : Shape).Idx → M) : ∑ i, f i = ∑ a : Fin n, f (ix1 a) := by
  let e : (⟨1, ![n]⟩ : Shape).Idx ≃ Fin n :=
    { toFun := fun i => i 0, invFun := fun a => ix1 a, left_inv := fun i => (eq_ix1 i).symm, right_inv := fun _ => rfl }
  rw [← Equiv.sum_comp e.symm f]
  rfl

/-- A sum over the indices of a rank-3 array is the triple sum over its coordinates. -/
theorem sum_idx3 {n0 n1 n2 : ℕ} (f : (⟨3, ![n0, n1, n2]⟩ : Shape).Idx → M) :
    ∑ i, f i = ∑ a : Fin n0, ∑ b : Fin n1, ∑ c : Fin n2, f (ix3 a b c) := by
  let e : (⟨3, ![n0, n1, n2]⟩ : Shape).Idx ≃ Fin n0 × Fin n1 × Fin n2 :=
    { toFun := fun i => (i 0, i 1, i 2), invFun := fun p => ix3 p.1 p.2.1 p.2.2,
      left_inv := fun i => (eq_ix3 i).symm, right_inv := fun _ => rfl }
  rw [← Equiv.sum_comp e.symm f, Fintype.sum_prod_type]
  refine Finset.sum_congr rfl fun a _ => ?_
  rw [Fintype.sum_prod_type]
  rfl

/-- A sum over the indices of a rank-4 array is the fourfold sum over its coordinates. -/
theorem sum_idx4 {n0 n1 n2 n3 : ℕ} (f : (⟨4, ![n0, n1, n2, n3]⟩ : Shape).Idx → M) :
    ∑ i, f i = ∑ a : Fin n0, ∑ b : Fin n1, ∑ c : Fin n2, ∑ d : Fin n3, f (ix4 a b c d) := by
  let e : (⟨4, ![n0, n1, n2, n3]⟩ : Shape).Idx ≃ Fin n0 × Fin n1 × Fin n2 × Fin n3 :=
    { toFun := fun i => (i 0, i 1, i 2, i 3), invFun := fun p => ix4 p.1 p.2.1 p.2.2.1 p.2.2.2,
      left_inv := fun i => (eq_ix4 i).symm, right_inv := fun _ => rfl }
  rw [← Equiv.sum_comp e.symm f, Fintype.sum_prod_type]
  refine Finset.sum_congr rfl fun a _ => ?_
  rw [Fintype.sum_prod_type]
  refine Finset.sum_congr rfl fun b _ => ?_
  rw [Fintype.sum_prod_type]
  rfl

end IndexSums

/-- On the extended reals a host sum over axes 1 and 2 of `[a, n, m, b, c, d]` is, at `(p, q, r, s)`, the initial value
    plus the sum over both removed coordinates of the entry at `(p, i, j, q, r, s)`. -/
theorem hostSum_axes12_apply {a n m b c d : ℕ}
    (h' : (⟨6, ![a, n, m, b, c, d]⟩ : Shape).ReducesTo [1, 2] ⟨4, ![a, b, c, d]⟩)
    (x : (⟨6, ![a, n, m, b, c, d]⟩ : Shape).Idx → EReal) (init : EReal) (p : Fin a) (q : Fin b) (r : Fin c) (s : Fin d) :
    Ideal.hostReduceAdd h' x init (ix4 p q r s) = init + ∑ i : Fin n, ∑ j : Fin m, x (ix6 p i j q r s) := by
  unfold Ideal.hostReduceAdd
  refine congrArg (init + ·) ?_
  rw [← Fintype.sum_prod_type' (fun (i : Fin n) (j : Fin m) => x (ix6 p i j q r s))]
  refine Finset.sum_nbij' (fun i => (i 1, i 2)) (fun k => ix6 p k.1 k.2 q r s) ?_ ?_ ?_ ?_ ?_
  · intro i _; exact Finset.mem_univ _
  · intro k _
    refine Finset.mem_filter.2 ⟨Finset.mem_univ _, funext fun e => Fin.ext ?_⟩
    match e with | ⟨0, _⟩ => rfl | ⟨1, _⟩ => rfl | ⟨2, _⟩ => rfl | ⟨3, _⟩ => rfl
  · intro i hi
    have hj := (Finset.mem_filter.1 hi).2
    have e0 : (i 0).val = p.val := congrArg (fun v : (⟨4, ![a, b, c, d]⟩ : Shape).Idx => (v 0).val) hj
    have e1 : (i 3).val = q.val := congrArg (fun v : (⟨4, ![a, b, c, d]⟩ : Shape).Idx => (v 1).val) hj
    have e2 : (i 4).val = r.val := congrArg (fun v : (⟨4, ![a, b, c, d]⟩ : Shape).Idx => (v 2).val) hj
    have e3 : (i 5).val = s.val := congrArg (fun v : (⟨4, ![a, b, c, d]⟩ : Shape).Idx => (v 3).val) hj
    funext e
    apply Fin.ext
    match e with
    | ⟨0, _⟩ => exact e0.symm
    | ⟨1, _⟩ => rfl
    | ⟨2, _⟩ => rfl
    | ⟨3, _⟩ => exact e1.symm
    | ⟨4, _⟩ => exact e2.symm
    | ⟨5, _⟩ => exact e3.symm
  · intro k _; rfl
  · intro i hi
    have hj := (Finset.mem_filter.1 hi).2
    have e0 : (i 0).val = p.val := congrArg (fun v : (⟨4, ![a, b, c, d]⟩ : Shape).Idx => (v 0).val) hj
    have e1 : (i 3).val = q.val := congrArg (fun v : (⟨4, ![a, b, c, d]⟩ : Shape).Idx => (v 1).val) hj
    have e2 : (i 4).val = r.val := congrArg (fun v : (⟨4, ![a, b, c, d]⟩ : Shape).Idx => (v 2).val) hj
    have e3 : (i 5).val = s.val := congrArg (fun v : (⟨4, ![a, b, c, d]⟩ : Shape).Idx => (v 3).val) hj
    refine congrArg x (funext fun e => Fin.ext ?_)
    match e with
    | ⟨0, _⟩ => exact e0
    | ⟨1, _⟩ => rfl
    | ⟨2, _⟩ => rfl
    | ⟨3, _⟩ => exact e1
    | ⟨4, _⟩ => exact e2
    | ⟨5, _⟩ => exact e3

section VectorSums
variable {φ : FTy}

/-- The index a sum along the leading axis of `[n, a, b]` inserts over `(i, j)` at coordinate `k` is `(k, i, j)`. -/
theorem lift_lead3 {n a b : ℕ} (h : Shape.Reduces ⟨3, ![n, a, b]⟩ [0] ⟨2, ![a, b]⟩) (i : Fin a) (j : Fin b) (k : Fin n) :
    h.lift (ix2 i j) k = ix3 k i j :=
  funext fun d => Fin.ext (by match d with | ⟨0, _⟩ => rfl | ⟨1, _⟩ => rfl | ⟨2, _⟩ => rfl)

/-- On the extended reals a vector sum along the leading axis of `[n, a, b]`, at `(i, j)`, is the sum over the leading
    coordinate. -/
theorem leadSum3_apply {n a b : ℕ} (v : FVec Ideal ⟨3, ![n, a, b]⟩ φ) (acc : BitVec φ.bits)
    (h : Shape.Reduces ⟨3, ![n, a, b]⟩ [0] ⟨2, ![a, b]⟩) (hφ : FKind.Formats φ) (hacc : acc = FKind.add.neutral φ hφ)
    (i : Fin a) (j : Fin b) :
    multiReduction .add [0] ⟨2, ![a, b]⟩ v acc h hφ hacc (ix2 i j) = ∑ k : Fin n, v (ix3 k i j) :=
  (Ideal.multiReduction_add_single v acc h hφ hacc (ix2 i j)).trans
    (Finset.sum_congr rfl fun k _ => congrArg v (lift_lead3 h i j k))

/-- The index a sum along the leading axis of a column `[a, 1]` inserts over its one result index is `(k, 0)`. -/
theorem lift_col {a : ℕ} (h : Shape.Reduces ⟨2, ![a, 1]⟩ [0] ⟨1, ![1]⟩) (u : Fin 1) (k : Fin a) :
    h.lift (ix1 u) k = ix2 k u :=
  funext fun d => Fin.ext (by match d with | ⟨0, _⟩ => rfl | ⟨1, _⟩ => rfl)

/-- On the extended reals a vector sum along the leading axis of a column `[a, 1]` is the sum of the column. -/
theorem colSum_apply {a : ℕ} (v : FVec Ideal ⟨2, ![a, 1]⟩ φ) (acc : BitVec φ.bits)
    (h : Shape.Reduces ⟨2, ![a, 1]⟩ [0] ⟨1, ![1]⟩) (hφ : FKind.Formats φ) (hacc : acc = FKind.add.neutral φ hφ) (u : Fin 1) :
    multiReduction .add [0] ⟨1, ![1]⟩ v acc h hφ hacc (ix1 u) = ∑ k : Fin a, v (ix2 k u) :=
  (Ideal.multiReduction_add_single v acc h hφ hacc (ix1 u)).trans
    (Finset.sum_congr rfl fun k _ => congrArg v (lift_col h u k))

end VectorSums

section Layout
variable {α : Type}

/-- A one-element vector `[1]` viewed as `[1, 1]` keeps its entry. -/
theorem shapeCast_1_11_apply (x : (⟨1, ![1]⟩ : Shape).Idx → α) (h : (⟨1, ![1]⟩ : Shape).ShapeCasts ⟨2, ![1, 1]⟩)
    (u v : Fin 1) : shapeCast ⟨2, ![1, 1]⟩ x h (ix2 u v) = x (ix1 (0 : Fin 1)) :=
  shapeCast_apply x h _ _ (by
    have hu : u.val = 0 := by omega
    have hv : v.val = 0 := by omega
    rw [Shape.rowMajor_val_two, Shape.rowMajor_val_one]
    show 0 = u.val * 1 + v.val
    rw [hu, hv])

/-- A `[1, 1]` array viewed as `[1, 1, 1]` keeps its entry. -/
theorem shapeCast_11_111_apply (x : (⟨2, ![1, 1]⟩ : Shape).Idx → α) (h : (⟨2, ![1, 1]⟩ : Shape).ShapeCasts ⟨3, ![1, 1, 1]⟩)
    (u v w : Fin 1) : shapeCast ⟨3, ![1, 1, 1]⟩ x h (ix3 u v w) = x (ix2 (0 : Fin 1) (0 : Fin 1)) :=
  shapeCast_apply x h _ _ (by
    have hu : u.val = 0 := by omega
    have hv : v.val = 0 := by omega
    have hw : w.val = 0 := by omega
    rw [Shape.rowMajor_val_three, Shape.rowMajor_val_two]
    show 0 * 1 + 0 = (u.val * 1 + v.val) * 1 + w.val
    rw [hu, hv, hw])

/-- A block `[1, n, 1, a, b]` viewed as `[n, a, b]` reads, at `(k, i, j)`, the block at `(0, k, 0, i, j)`. -/
theorem shapeCast_1n1ab_nab_apply {n a b : ℕ} (x : (⟨5, ![1, n, 1, a, b]⟩ : Shape).Idx → α)
    (h : (⟨5, ![1, n, 1, a, b]⟩ : Shape).ShapeCasts ⟨3, ![n, a, b]⟩) (k : Fin n) (i : Fin a) (j : Fin b) :
    shapeCast ⟨3, ![n, a, b]⟩ x h (ix3 k i j) = x (ix5 (0 : Fin 1) k (0 : Fin 1) i j) :=
  shapeCast_apply x h _ _ (by
    rw [Shape.rowMajor_val_five, Shape.rowMajor_val_three]
    show (((0 * n + k.val) * 1 + 0) * a + i.val) * b + j.val = (k.val * a + i.val) * b + j.val
    simp only [Nat.zero_mul, Nat.zero_add, Nat.mul_one, Nat.add_zero])

/-- A block `[1, 1, a, b]` viewed as `[a, b]` reads, at `(i, j)`, the block at `(0, 0, i, j)`. -/
theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

/-- One matrix `[1, a, b]` repeated `n` times along a new leading axis reads, at `(m, i, j)`, the matrix at `(i, j)`. -/
theorem broadcastTo_1ab_nab_apply {n a b : ℕ} (v : (⟨3, ![1, a, b]⟩ : Shape).Idx → α)
    (h : (⟨3, ![1, a, b]⟩ : Shape).Broadcasts ⟨3, ![n, a, b]⟩) (m : Fin n) (i : Fin a) (j : Fin b) :
    broadcastTo ⟨3, ![n, a, b]⟩ v h (ix3 m i j) = v (ix3 (0 : Fin 1) i j) := by
  refine broadcastTo_apply v h (ix3 m i j) (ix3 (0 : Fin 1) i j) fun ax => ?_
  match ax with
  | ⟨0, _⟩ => rfl
  | ⟨1, _⟩ =>
    show i.val = if a = 1 then 0 else i.val
    split
    · have := i.isLt; omega
    · rfl
  | ⟨2, _⟩ =>
    show j.val = if b = 1 then 0 else j.val
    split
    · have := j.isLt; omega
    · rfl

/-- Member `k` of a stack `[n, a, b]` — sliced out as `[1, a, b]`, viewed as `[a, b]`, viewed as `[1, a, b]` again and
    repeated `n` times — reads, at `(m, i, j)`, the stack at `(k, i, j)`. -/
theorem memberSpread_apply {n a b : ℕ} (v : (⟨3, ![n, a, b]⟩ : Shape).Idx → α) (off : Fin 3 → ℕ) (k : Fin n)
    (hoff : off = ![k.val, 0, 0]) (hs : (⟨3, ![n, a, b]⟩ : Shape).Slices off ⟨3, ![1, a, b]⟩)
    (h1 : (⟨3, ![1, a, b]⟩ : Shape).ShapeCasts ⟨2, ![a, b]⟩) (h2 : (⟨2, ![a, b]⟩ : Shape).ShapeCasts ⟨3, ![1, a, b]⟩)
    (hb : (⟨3, ![1, a, b]⟩ : Shape).Broadcasts ⟨3, ![n, a, b]⟩) (m : Fin n) (i : Fin a) (j : Fin b) :
    broadcastTo ⟨3, ![n, a, b]⟩ (shapeCast ⟨3, ![1, a, b]⟩ (shapeCast ⟨2, ![a, b]⟩
      (extractStridedSlice ⟨3, ![1, a, b]⟩ off v hs) h1) h2) hb (ix3 m i j) = v (ix3 k i j) := by
  subst hoff
  refine (broadcastTo_1ab_nab_apply _ hb m i j).trans ?_
  refine (shapeCast_ab_1ab_apply _ h2 0 i j).trans ?_
  refine (shapeCast_1ab_ab_apply _ h1 i j).trans ?_
  refine extractStridedSlice_apply _ v hs _ _ fun ax => ?_
  match ax with
  | ⟨0, _⟩ => show k.val = k.val + 0; omega
  | ⟨1, _⟩ => show i.val = 0 + i.val; omega
  | ⟨2, _⟩ => show j.val = 0 + j.val; omega

end Layout

end Cert.Sums

end
-- ==== Proof.RefIsSpec.lean ====
/-
  The reference computes the mean score.

  jnp's program forms |p − g| over the whole `[8, 16, 4, 128, 256]` array and sums it over the ensemble axis, forms the
  `[8, 16, 16, 4, 128, 256]` array of all pairwise distances |pᵢ − pⱼ| and sums it over both ensemble axes at once,
  divides by 16 and by 480, subtracts, sums over every pixel and divides by 2²⁰. Read at an index, stage by stage,
  that is `Cert.Crps.total` literally: the two broadcasts of `p` read `p` at `(b, i, c, r, s)` and `(b, j, c, r, s)`, and
  the sum over all `[8, 4, 128, 256]` indices is the fourfold sum over the coordinates.
-/
import proofs.«180781_j53489522705022_2_alg».proof.Proof.Gen.ReferenceIdeal.Read
import proofs.«180781_j53489522705022_2_alg».proof.Proof.Spec
import proofs.«180781_j53489522705022_2_alg».proof.Proof.LibSums
import Idealize.ShloMosaic.Lib.ValueIdx
import Idealize.ShloMosaic.PureOps.Ideal.Laws

noncomputable section

open scoped BigOperators

namespace Cert.ReferenceIdeal.RefValue

open Cert.ReferenceIdeal Cert.ReferenceIdeal.Gen Cert.ReferenceIdeal.Read Idealize.ShloMosaic Idealize.ShloMosaic.ValueIdx Cert.Sums

variable (x0 : (⟨S8x16x4x128x256, .f32⟩ : BufTy).Contents (Elt Ideal)) (x1 : (⟨S8x4x128x256, .f32⟩ : BufTy).Contents (Elt Ideal))

/-- The first term at a pixel: the sum over the ensemble of the distances to the observation. -/
theorem v4_apply (b : Fin 8) (c : Fin 4) (r : Fin 128) (s : Fin 256) :
    val_main_v4 (F := Ideal) x0 x1 (ix4 b c r s) = ∑ n : Fin 16, Cert.Crps.dist (x0 (ix5 b n c r s)) (x1 (ix4 b c r s)) := by
  rw [val_main_v4_apply, val_main_cst_apply]
  show Ideal.ofBits .f32 0x00000000#32 + _ = _
  rw [Ideal.ofBits_zero_f32, zero_add]
  refine Finset.sum_congr rfl fun n _ => ?_
  rw [val_main_v3_apply, val_main_v2_apply, val_main_v1_apply, val_main_v0_apply]
  have e0 : idx_main_v4 (ix4 b c r s) n = ix5 b n c r s :=
    funext fun a => Fin.ext (by match a with | ⟨0, _⟩ => rfl | ⟨1, _⟩ => rfl | ⟨2, _⟩ => rfl | ⟨3, _⟩ => rfl | ⟨4, _⟩ => rfl)
  have e1 : idx_main_v0 (idx_main_v1 (idx_main_v4 (ix4 b c r s) n)) = ix4 b c r s :=
    funext fun a => Fin.ext (by match a with | ⟨0, _⟩ => rfl | ⟨1, _⟩ => rfl | ⟨2, _⟩ => rfl | ⟨3, _⟩ => rfl)
  rw [e1, e0]
  rfl

/-- The second term at a pixel: the sum over all pairs of members of their distance. -/
theorem v13_apply (b : Fin 8) (c : Fin 4) (r : Fin 128) (s : Fin 256) :
    val_main_v13 (F := Ideal) x0 (ix4 b c r s)
      = ∑ i : Fin 16, ∑ j : Fin 16, Cert.Crps.dist (x0 (ix5 b i c r s)) (x0 (ix5 b j c r s)) := by
  unfold val_main_v13
  generalize hy : val_main_v12 (F := Ideal) x0 = y0
  simp only [Host.reduceAdd, Ideal.hostReduceAdd_def]
  refine (hostSum_axes12_apply reducesTo_S8x16x16x4x128x256_S8x4x128x256_d1_2 y0 _ b c r s).trans ?_
  rw [val_main_cst_1_apply]
  show Ideal.ofBits .f32 0x00000000#32 + _ = _
  rw [Ideal.ofBits_zero_f32, zero_add]
  refine Finset.sum_congr rfl fun i _ => Finset.sum_congr rfl fun j _ => ?_
  subst hy
  rw [val_main_v12_apply, val_main_v11_apply, val_main_v9_apply, val_main_v10_apply, val_main_v7_apply, val_main_v8_apply]
  have e0 : idx_main_v7 (idx_main_v9 (ix6 b i j c r s)) = ix5 b i c r s :=
    funext fun a => Fin.ext (by match a with | ⟨0, _⟩ => rfl | ⟨1, _⟩ => rfl | ⟨2, _⟩ => rfl | ⟨3, _⟩ => rfl | ⟨4, _⟩ => rfl)
  have e1 : idx_main_v8 (idx_main_v10 (ix6 b i j c r s)) = ix5 b j c r s :=
    funext fun a => Fin.ext (by match a with | ⟨0, _⟩ => rfl | ⟨1, _⟩ => rfl | ⟨2, _⟩ => rfl | ⟨3, _⟩ => rfl | ⟨4, _⟩ => rfl)
  rw [e0, e1]
  rfl

/-- The field of scores at a pixel. -/
theorem v16_apply (b : Fin 8) (c : Fin 4) (r : Fin 128) (s : Fin 256) :
    val_main_v16 (F := Ideal) x0 x1 (ix4 b c r s) = Cert.Crps.pixel x0 x1 b c r s := by
  rw [val_main_v16_apply, val_main_v6_apply, val_main_v15_apply, v4_apply, v13_apply, val_main_v5_apply, val_main_v14_apply,
    val_main_cst_0_apply, val_main_cst_2_apply]
  rfl

/-- The reference's result is the mean score. -/
theorem result_eq : val_main_v18 (F := Ideal) x0 x1 = fun _ => Cert.Crps.total x0 x1 := by
  funext i
  rw [val_main_v18_apply, val_main_v17_apply, val_main_cst_3_apply, val_main_cst_4_apply, sum_idx4]
  show Ideal.div (Ideal.ofBits .f32 0x00000000#32 + _) _ = _
  rw [Ideal.ofBits_zero_f32, zero_add]
  unfold Cert.Crps.total Cert.Crps.slab
  refine congrArg (fun z => Ideal.div z _) ?_
  refine Finset.sum_congr rfl fun b _ => Finset.sum_congr rfl fun c _ => Finset.sum_congr rfl fun r _ =>
    Finset.sum_congr rfl fun s _ => ?_
  exact v16_apply x0 x1 b c r s

end Cert.ReferenceIdeal.RefValue

end
-- ==== Proof.Pieces.lean ====
/-
  What one run of the kernel's body leaves behind, as values.

  At a grid point `(b, c)` the body loads the `[16, 128, 256]` slab of predictions and the `[128, 256]` slab of
  observations, computes from them ONE number — the sum over the slab's pixels of the per-pixel score (`blockVal`) — and
  adds it to the one-entry accumulator it carries from point to point:
    * at `c = 0` the accumulator is first set to zero, so the body leaves `0 + blockVal`;
    * at `0 < c < 3` it leaves `acc + blockVal` of the accumulator `acc` the point before left;
    * at `c = 3` it leaves `acc + blockVal` too, and copies that number into the output block.
  Each statement below reads one of the body's covering stores back: a store through the whole one-entry buffer
  leaves its payload, and a load through the whole buffer reads what was stored.
-/
import proofs.«180781_j53489522705022_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl
theorem hz5 : (![0, 0, 0, 0, 0] : Fin 5 → Nat) = fun _ => 0 := funext fun a => by fin_cases a <;> rfl

/-- The slab's contribution: the body's arithmetic on the two loaded slabs, a `[1, 1]` vector holding the sum over the
    slab's pixels of the per-pixel score. -/
def blockVal (x0 : Vec F S1x16x1x128x256 .f32) (x1 : Vec F S1x1x128x256 .f32) : FVec F S1x1 .f32 :=
  k0_pay10 (k0_pay4 x0) (k0_pay5 x0 x1) (k0_pay8 (k0_pay4 x0) (k0_pay6 x0) (k0_pay7 x0)) (k0_pay9 (k0_pay4 x0))

/-- At the first point of a row of the grid the accumulator is zeroed, read back, and left at `0 + blockVal`. -/
theorem sout_A (c : Dev nD) (i : grid0.Coords) (arg2 : Memref sig .tc .vmem S1x16x1x128x256 .f32) (harg2 : arg2.IsWhole) (arg3 : Memref sig .tc .vmem S1x1x128x256 .f32) (harg3 : arg3.IsWhole) (arg4 : Memref sig .tc .vmem S1x1x1 .f32) (harg4 : arg4.IsWhole) (arg5 : Memref sig .tc .vmem S1x1 .f32) (harg5 : arg5.IsWhole) (hc0 : cond0_0 i) (hc1 : ¬cond0_1 i)
    (x0 : Vec F S1x16x1x128x256 .f32) (x1 : Vec F S1x1x128x256 .f32) :
    sout0_A_0 c i arg2 harg2 arg3 harg3 arg4 harg4 arg5 harg5 hc0 hc1 x0 x1 = k0_pay2 (blockVal x0 x1) k0_pay1 := by
  unfold sout0_A_0
  rw [View.read_writes_eq_canon _ _ _ (scover0_A_0 c i arg2 harg2 arg3 harg3 arg4 harg4 arg5 harg5 hc0 hc1 x0 x1)]
  unfold kernelRun0_A
  dsimp only
  sl_unfold_words
  rw [View.canon_cons_unit_zero (S := S1x1) hz2, View.readCov_unit_zero (S := S1x1) _ hz2]
  simp only [View.readAt_eq_ld, harg2.read_unread, harg3.read_unread, View.ld_unit_zero (S := S1x16x1x128x256) hz5,
    View.ld_unit_zero (S := S1x1x128x256) hz4]
  rfl

/-- At a middle point the accumulator `xs0` the point before left is read and left at `xs0 + blockVal`. -/
theorem sout_B (c : Dev nD) (i : grid0.Coords) (arg2 : Memref sig .tc .vmem S1x16x1x128x256 .f32) (harg2 : arg2.IsWhole) (arg3 : Memref sig .tc .vmem S1x1x128x256 .f32) (harg3 : arg3.IsWhole) (arg4 : Memref sig .tc .vmem S1x1x1 .f32) (harg4 : arg4.IsWhole) (arg5 : Memref sig .tc .vmem S1x1 .f32) (harg5 : arg5.IsWhole) (hc0 : ¬cond0_0 i) (hc1 : ¬cond0_1 i)
    (x0 : Vec F S1x16x1x128x256 .f32) (x1 : Vec F S1x1x128x256 .f32) (xs0 : Vec F S1x1 .f32) :
    sout0_B_0 c i arg2 harg2 arg3 harg3 arg4 harg4 arg5 harg5 hc0 hc1 x0 x1 xs0 = k0_pay2 (blockVal x0 x1) xs0 := by
  unfold sout0_B_0
  rw [View.read_writes_eq_canon _ _ _ (scover0_B_0 c i arg2 harg2 arg3 harg3 arg4 harg4 arg5 harg5 hc0 hc1 x0 x1 xs0)]
  unfold kernelRun0_B
  dsimp only
  sl_unfold_words
  rw [View.canon_unit_zero (S := S1x1) hz2]
  simp only [View.readAt_eq_ld, harg2.read_unread, harg3.read_unread, harg5.read_unread, View.ld_unit_zero (S := S1x16x1x128x256) hz5,
    View.ld_unit_zero (S := S1x1x128x256) hz4, View.ld_unit_zero (S := S1x1) hz2]
  rfl

/-- At the last point of a row the accumulator is left at `xs0 + blockVal` as well, -/
theorem sout_C (c : Dev nD) (i : grid0.Coords) (arg2 : Memref sig .tc .vmem S1x16x1x128x256 .f32) (harg2 : arg2.IsWhole) (arg3 : Memref sig .tc .vmem S1x1x128x256 .f32) (harg3 : arg3.IsWhole) (arg4 : Memref sig .tc .vmem S1x1x1 .f32) (harg4 : arg4.IsWhole) (arg5 : Memref sig .tc .vmem S1x1 .f32) (harg5 : arg5.IsWhole) (hc0 : ¬cond0_0 i) (hc1 : cond0_1 i)
    (x0 : Vec F S1x16x1x128x256 .f32) (x1 : Vec F S1x1x128x256 .f32) (xs0 : Vec F S1x1 .f32) :
    sout0_C_0 c i arg2 harg2 arg3 harg3 arg4 harg4 arg5 harg5 hc0 hc1 x0 x1 xs0 = k0_pay2 (blockVal x0 x1) xs0 := by
  unfold sout0_C_0
  rw [View.read_writes_eq_canon _ _ _ (scover0_C_0 c i arg2 harg2 arg3 harg3 arg4 harg4 arg5 harg5 hc0 hc1 x0 x1 xs0)]
  unfold kernelRun0_C
  dsimp only
  sl_unfold_words
  rw [View.canon_unit_zero (S := S1x1) hz2]
  simp only [View.readAt_eq_ld, harg2.read_unread, harg3.read_unread, harg5.read_unread, View.ld_unit_zero (S := S1x16x1x128x256) hz5,
    View.ld_unit_zero (S := S1x1x128x256) hz4, View.ld_unit_zero (S := S1x1) hz2]
  rfl

/-- and the output block receives that same number, re-laid `[1, 1] → [1, 1, 1]`. -/
theorem out_C (c : Dev nD) (i : grid0.Coords) (arg2 : Memref sig .tc .vmem S1x16x1x128x256 .f32) (harg2 : arg2.IsWhole) (arg3 : Memref sig .tc .vmem S1x1x128x256 .f32) (harg3 : arg3.IsWhole) (arg4 : Memref sig .tc .vmem S1x1x1 .f32) (harg4 : arg4.IsWhole) (arg5 : Memref sig .tc .vmem S1x1 .f32) (harg5 : arg5.IsWhole) (hc0 : ¬cond0_0 i) (hc1 : cond0_1 i)
    (x0 : Vec F S1x16x1x128x256 .f32) (x1 : Vec F S1x1x128x256 .f32) (xs0 : Vec F S1x1 .f32) :
    out0_C_2 c i arg2 harg2 arg3 harg3 arg4 harg4 arg5 harg5 hc0 hc1 x0 x1 xs0 = k0_pay3 (k0_pay2 (blockVal x0 x1) xs0) := by
  unfold out0_C_2
  rw [View.read_writes_eq_canon _ _ _ (cover0_C_2 c i arg2 harg2 arg3 harg3 arg4 harg4 arg5 harg5 hc0 hc1 x0 x1 xs0)]
  unfold kernelRun0_C
  dsimp only
  sl_unfold_words
  rw [View.canon_unit_zero (S := S1x1x1) hz3, View.readCov_unit_zero (S := S1x1) _ hz2]
  simp only [View.readAt_eq_ld, harg2.read_unread, harg3.read_unread, harg5.read_unread, View.ld_unit_zero (S := S1x16x1x128x256) hz5,
    View.ld_unit_zero (S := S1x1x128x256) hz4, View.ld_unit_zero (S := S1x1) hz2]
  rfl

end Cert.KernelIdeal.Pieces

end
-- ==== Proof.LibKeepdims.lean ====
/-
  A row-wise reduction kept as a column (`keepdims=True`) and spread back over the row, read at an index.

  A matrix `v : [a, b]` reduced along its rows gives a vector `[a]`; the vector is re-laid as a column `[a, 1]` and
  the column is broadcast to `[a, b]`. At `(r, c)` the result is the reduction of row `r`, whatever `c`. This file has
  the two layout steps (`[a] → [a, 1]`, `[a, 1] → [a, b]`) at any element type, and, on the extended reals, the two
  reductions a softmax uses read at a row: the maximum as a fold of `max` over the row's entries and the sum as a `∑`.
-/
import Idealize.ShloMosaic.PureOps.Ideal.Laws
import Idealize.ShloMosaic.Lib.Pipeline.Value
import Idealize.ShloMosaic.Lib.ValueIdx

namespace Cert.Keepdims

open Idealize.ShloMosaic Idealize.ShloMosaic.ValueIdx

section Layout
variable {α : Type}

/-- A vector `[a]` cast to a column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The two steps together: a vector kept as a column and spread over the rows reads, at `(p, c)`, the vector at `p`. -/
theorem spread_apply {a b : ℕ} (x : (⟨1, ![a]⟩ : Shape).Idx → α) (hc : (⟨1, ![a]⟩ : Shape).ShapeCasts ⟨2, ![a, 1]⟩)
    (hb : (⟨2, ![a, 1]⟩ : Shape).Broadcasts ⟨2, ![a, b]⟩) (p : Fin a) (c : Fin b) :
    broadcastTo ⟨2, ![a, b]⟩ (shapeCast ⟨2, ![a, 1]⟩ x hc) hb (ix2 p c) = x (ix1 p) :=
  (broadcastTo_a1_ab_apply _ hb p c).trans (shapeCast_a_a1_apply x hc p 0)

end Layout

section Reductions
variable {φ : FTy}

/-- Row `r` of a matrix reached through the index a reduction along the rows inserts. -/
theorem lift_row {a b : ℕ} (h : Shape.Reduces ⟨2, ![a, b]⟩ [1] ⟨1, ![a]⟩) (r : Fin a) (s : Fin b) :
    h.lift (ix1 r) s = ix2 r s :=
  funext fun d => Fin.ext (by match d with | ⟨0, _⟩ => rfl | ⟨1, _⟩ => rfl)

/-- On the extended reals the maximum along the rows, at row `r`, is the fold of `max`, from the accumulator's value,
    over that row's entries. -/
theorem rowMax_apply {a b : ℕ} (v : FVec Ideal ⟨2, ![a, b]⟩ φ) (acc : BitVec φ.bits)
    (h : Shape.Reduces ⟨2, ![a, b]⟩ [1] ⟨1, ![a]⟩) (hφ : FKind.Formats φ) (hacc : acc = FKind.maximumf.neutral φ hφ) (r : Fin a) :
    multiReduction .maximumf [1] ⟨1, ![a]⟩ v acc h hφ hacc (ix1 r)
      = (Finset.univ : Finset (Fin b)).fold max (FloatOps.ofBits (F := Ideal) φ acc) (fun s => v (ix2 r s)) :=
  (Ideal.multiReduction_maximumf_single v acc h hφ hacc (ix1 r)).trans
    (congrArg (fun f => (Finset.univ : Finset (Fin b)).fold max (FloatOps.ofBits (F := Ideal) φ acc) f)
      (funext fun s => congrArg v (lift_row h r s)))

/-- On the extended reals the sum along the rows, at row `r`, is the sum of that row's entries. -/
theorem rowSum_apply {a b : ℕ} (v : FVec Ideal ⟨2, ![a, b]⟩ φ) (acc : BitVec φ.bits)
    (h : Shape.Reduces ⟨2, ![a, b]⟩ [1] ⟨1, ![a]⟩) (hφ : FKind.Formats φ) (hacc : acc = FKind.add.neutral φ hφ) (r : Fin a) :
    multiReduction .add [1] ⟨1, ![a]⟩ v acc h hφ hacc (ix1 r) = ∑ s : Fin b, v (ix2 r s) :=
  (Ideal.multiReduction_add_single v acc h hφ hacc (ix1 r)).trans
    (Finset.sum_congr rfl fun s _ => congrArg v (lift_row h r s))

end Reductions

end Cert.Keepdims
-- ==== Proof.BlockValue.lean ====
/-
  The slab's contribution, read as a number.

  The body's arithmetic on the two loaded slabs (`Pieces.blockVal`) is a chain of whole-vector operations. Written
  out it is: sixteen times — once per member `k` of the ensemble — the slab of member `k` is spread over the ensemble
  axis, subtracted from the whole stack, and the absolute differences are summed over the ensemble axis (`pairRow`);
  the sixteen results are added up in order from zero (`pairs`); the first term (the summed distances to the
  observation, over 16) minus that sum over 480 is summed along each row, then down the column of row sums
  (`finish`). These are the printed operations regrouped, nothing else (`blockVal_eq`).

  On the extended reals each step reads at an index as the sum it is, so `blockVal` holds the sum over the slab's
  pixels `(r, s)` of `Cert.Crps.cell` of the pixel's sixteen predictions and its observation (`blockVal_apply`). The
  body sums |pₙ − pₖ| over `n` for each `k` and then over `k`; the score sums |pᵢ − pⱼ| over `j` for each `i`: the same
  double sum with the two members exchanged, equal whatever the entries are.
-/
import proofs.«180781_j53489522705022_2_alg».proof.Proof.Pieces
import proofs.«180781_j53489522705022_2_alg».proof.Proof.Spec
import proofs.«180781_j53489522705022_2_alg».proof.Proof.LibSums
import proofs.«180781_j53489522705022_2_alg».proof.Proof.LibKeepdims
import Idealize.ShloMosaic.Lib.ValueIdx
import Idealize.ShloMosaic.Lib.ValueLayout
import Idealize.ShloMosaic.PureOps.Ideal.Laws

noncomputable section

open scoped BigOperators

namespace Cert.KernelIdeal.BlockValue

open Cert.KernelIdeal Cert.KernelIdeal.Gen Cert.KernelIdeal.Pieces Idealize.ShloMosaic Idealize.ShloMosaic.ValueIdx Cert.Sums

section Regrouped
variable {F : FTy → Type} [FloatOps F]

/-- For the member whose slab the offsets `off` cut out of the stack `v1`: at each pixel, the sum over the ensemble of
    the distances to that member. -/
def pairRow (v1 : FVec F S16x128x256 .f32) (off : Fin 3 → Nat) (hs : S16x128x256.Slices off S1x128x256) : FVec F S128x256 .f32 :=
  multiReduction .add [0] S128x256
    (absf (subf v1 (broadcastTo S16x128x256 (shapeCast S1x128x256 (shapeCast S128x256
      (extractStridedSlice S1x128x256 off v1 hs) shapeCasts_S1x128x256_S128x256) shapeCasts_S128x256_S1x128x256)
      broadcasts_S1x128x256_S16x128x256)))
    0x00000000#32 reduces_S16x128x256_S128x256 (.inl rfl) rfl

/-- The sixteen members' sums added up in order, from zero. -/
def pairs (v1 : FVec F S16x128x256 .f32) : FVec F S128x256 .f32 :=
  addf (addf (addf (addf (addf (addf (addf (addf (addf (addf (addf (addf (addf (addf (addf (addf
    (broadcast S128x256 (Scalar.ofBits .f32 0x00000000#32))
    (pairRow v1 ![0, 0, 0] slices_S16x128x256_o0_0_0_S1x128x256))
    (pairRow v1 ![1, 0, 0] slices_S16x128x256_o1_0_0_S1x128x256))
    (pairRow v1 ![2, 0, 0] slices_S16x128x256_o2_0_0_S1x128x256))
    (pairRow v1 ![3, 0, 0] slices_S16x128x256_o3_0_0_S1x128x256))
    (pairRow v1 ![4, 0, 0] slices_S16x128x256_o4_0_0_S1x128x256))
    (pairRow v1 ![5, 0, 0] slices_S16x128x256_o5_0_0_S1x128x256))
    (pairRow v1 ![6, 0, 0] slices_S16x128x256_o6_0_0_S1x128x256))
    (pairRow v1 ![7, 0, 0] slices_S16x128x256_o7_0_0_S1x128x256))
    (pairRow v1 ![8, 0, 0] slices_S16x128x256_o8_0_0_S1x128x256))
    (pairRow v1 ![9, 0, 0] slices_S16x128x256_o9_0_0_S1x128x256))
    (pairRow v1 ![10, 0, 0] slices_S16x128x256_o10_0_0_S1x128x256))
    (pairRow v1 ![11, 0, 0] slices_S16x128x256_o11_0_0_S1x128x256))
    (pairRow v1 ![12, 0, 0] slices_S16x128x256_o12_0_0_S1x128x256))
    (pairRow v1 ![13, 0, 0] slices_S16x128x256_o13_0_0_S1x128x256))
    (pairRow v1 ![14, 0, 0] slices_S16x128x256_o14_0_0_S1x128x256))
    (pairRow v1 ![15, 0, 0] slices_S16x128x256_o15_0_0_S1x128x256)

/-- The first term minus the pair sum over 480, summed along the rows and then down the column of row sums. -/
def finish (v10 v139 : FVec F S128x256 .f32) : FVec F S1x1 .f32 :=
  shapeCast S1x1 (multiReduction .add [0] S1 (shapeCast S128x1 (multiReduction .add [1] S128
    (subf v10 (divf v139 (broadcast S128x256 (Scalar.ofBits .f32 0x43F00000#32))))
    0x00000000#32 reduces_S128x256_S128 (.inl rfl) rfl) shapeCasts_S128_S128x1)
    0x00000000#32 reduces_S128x1_S1 (.inl rfl) rfl) shapeCasts_S1_S1x1

/-- The body's arithmetic is these three steps. -/
theorem blockVal_eq (x0 : Vec F S1x16x1x128x256 .f32) (x1 : Vec F S1x1x128x256 .f32) :
    blockVal x0 x1 = finish (k0_pay5 x0 x1) (pairs (k0_pay4 x0)) := rfl

end Regrouped

/-! ## Each step at an index, on the extended reals -/

/-- The stack of predictions as the body sees it: the loaded block with its two unit axes dropped. -/
theorem stack_apply (x0 : Vec Ideal S1x16x1x128x256 .f32) (n : Fin 16) (r : Fin 128) (s : Fin 256) :
    k0_pay4 x0 (ix3 n r s) = x0 (ix5 (0 : Fin 1) n (0 : Fin 1) r s) := by
  unfold k0_pay4
  exact shapeCast_1n1ab_nab_apply x0 _ n r s

/-- At a pixel, member `k`'s sum: the distances of all sixteen members to member `k`. -/
theorem pairRow_apply (v1 : FVec Ideal S16x128x256 .f32) (off : Fin 3 → Nat) (k : Fin 16) (hoff : off = ![k.val, 0, 0])
    (hs : S16x128x256.Slices off S1x128x256) (r : Fin 128) (s : Fin 256) :
    pairRow v1 off hs (ix2 r s) = ∑ n : Fin 16, Cert.Crps.dist (v1 (ix3 n r s)) (v1 (ix3 k r s)) := by
  unfold pairRow
  refine (leadSum3_apply _ 0x00000000#32 reduces_S16x128x256_S128x256 (.inl rfl) rfl r s).trans ?_
  refine Finset.sum_congr rfl fun n _ => ?_
  show max (v1 (ix3 n r s) - _) (-(v1 (ix3 n r s) - _)) = _
  rw [memberSpread_apply v1 off k hoff hs shapeCasts_S1x128x256_S128x256 shapeCasts_S128x256_S1x128x256
    broadcasts_S1x128x256_S16x128x256 n r s]
  rfl

/-- A sum over the sixteen members, written out first to last from zero. -/
theorem sum_sixteen (f : Fin 16 → EReal) :
    0 + f 0 + f 1 + f 2 + f 3 + f 4 + f 5 + f 6 + f 7 + f 8 + f 9 + f 10 + f 11 + f 12 + f 13 + f 14 + f 15 = ∑ k, f k := by
  rw [zero_add]
  simp only [Fin.sum_univ_castSucc, Fin.sum_univ_zero, zero_add]
  rfl

/-- At a pixel, the sum over all ordered pairs of members of their distance. -/
theorem pairs_apply (v1 : FVec Ideal S16x128x256 .f32) (r : Fin 128) (s : Fin 256) :
    pairs v1 (ix2 r s) = ∑ i : Fin 16, ∑ j : Fin 16, Cert.Crps.dist (v1 (ix3 i r s)) (v1 (ix3 j r s)) := by
  rw [← Cert.Crps.pairs_comm, ← sum_sixteen]
  unfold pairs
  simp only [addf_apply]
  rw [pairRow_apply v1 ![0, 0, 0] 0 rfl, pairRow_apply v1 ![1, 0, 0] 1 rfl, pairRow_apply v1 ![2, 0, 0] 2 rfl, pairRow_apply v1 ![3, 0, 0] 3 rfl,
    pairRow_apply v1 ![4, 0, 0] 4 rfl, pairRow_apply v1 ![5, 0, 0] 5 rfl, pairRow_apply v1 ![6, 0, 0] 6 rfl, pairRow_apply v1 ![7, 0, 0] 7 rfl,
    pairRow_apply v1 ![8, 0, 0] 8 rfl, pairRow_apply v1 ![9, 0, 0] 9 rfl, pairRow_apply v1 ![10, 0, 0] 10 rfl, pairRow_apply v1 ![11, 0, 0] 11 rfl,
    pairRow_apply v1 ![12, 0, 0] 12 rfl, pairRow_apply v1 ![13, 0, 0] 13 rfl, pairRow_apply v1 ![14, 0, 0] 14 rfl, pairRow_apply v1 ![15, 0, 0] 15 rfl]
  show Ideal.ofBits .f32 0x00000000#32 + _ + _ + _ + _ + _ + _ + _ + _ + _ + _ + _ + _ + _ + _ + _ + _ = _
  rw [Ideal.ofBits_zero_f32]

/-- At a pixel, the first term: the summed distances to the observation, over 16. -/
theorem term1_apply (x0 : Vec Ideal S1x16x1x128x256 .f32) (x1 : Vec Ideal S1x1x128x256 .f32) (r : Fin 128) (s : Fin 256) :
    k0_pay5 x0 x1 (ix2 r s)
      = Ideal.div (∑ n : Fin 16, Cert.Crps.dist (k0_pay4 x0 (ix3 n r s)) (x1 (ix4 (0 : Fin 1) (0 : Fin 1) r s)))
          (Ideal.ofBits .f32 0x41800000#32) := by
  unfold k0_pay5
  show Ideal.div _ _ = _
  refine congrArg (fun z => Ideal.div z _) ?_
  refine (leadSum3_apply _ 0x00000000#32 reduces_S16x128x256_S128x256 (.inl rfl) rfl r s).trans ?_
  refine Finset.sum_congr rfl fun n _ => ?_
  show max (k0_pay4 x0 (ix3 n r s) - _) (-(k0_pay4 x0 (ix3 n r s) - _)) = _
  rw [broadcastTo_1ab_nab_apply _ broadcasts_S1x128x256_S16x128x256 n r s,
    shapeCast_ab_1ab_apply _ shapeCasts_S128x256_S1x128x256 0 r s,
    shapeCast_11ab_ab_apply x1 shapeCasts_S1x1x128x256_S128x256 r s]
  rfl

/-- The last step: the one entry is the sum over the rows of the row sums of (first term − pair sum / 480). -/
theorem finish_apply (v10 v139 : FVec Ideal S128x256 .f32) (u v : Fin 1) :
    finish v10 v139 (ix2 u v)
      = ∑ r : Fin 128, ∑ s : Fin 256, (v10 (ix2 r s) - Ideal.div (v139 (ix2 r s)) (Ideal.ofBits .f32 0x43F00000#32)) := by
  unfold finish
  refine (shapeCast_1_11_apply _ shapeCasts_S1_S1x1 u v).trans ?_
  refine (colSum_apply _ 0x00000000#32 reduces_S128x1_S1 (.inl rfl) rfl 0).trans ?_
  refine Finset.sum_congr rfl fun r _ => ?_
  refine (Cert.Keepdims.shapeCast_a_a1_apply _ shapeCasts_S128_S128x1 r 0).trans ?_
  refine (Cert.Keepdims.rowSum_apply _ 0x00000000#32 reduces_S128x256_S128 (.inl rfl) rfl r).trans ?_
  rfl

/-- The slab's contribution is the sum of the scores of its pixels. -/
theorem blockVal_apply (x0 : Vec Ideal S1x16x1x128x256 .f32) (x1 : Vec Ideal S1x1x128x256 .f32) (u v : Fin 1) :
    blockVal x0 x1 (ix2 u v)
      = ∑ r : Fin 128, ∑ s : Fin 256,
          Cert.Crps.cell (fun n => x0 (ix5 (0 : Fin 1) n (0 : Fin 1) r s)) (x1 (ix4 (0 : Fin 1) (0 : Fin 1) r s)) := by
  rw [blockVal_eq, finish_apply]
  refine Finset.sum_congr rfl fun r _ => Finset.sum_congr rfl fun s _ => ?_
  rw [term1_apply, pairs_apply]
  unfold Cert.Crps.cell
  simp only [stack_apply]

end Cert.KernelIdeal.BlockValue

end
-- ==== Proof.Accumulate.lean ====
/-
  The accumulator across the grid.

  The grid is 8 × 4: point `t` is `(b, c) = (t / 4, t % 4)`, the slab of predictions it loads is
  `p[b, ·, c, ·, ·]` and the slab of observations `g[b, c, ·, ·]`, so the number the body adds at point `t` is
  `slab p g b c` (`block_slabAt`). The one-entry accumulator is reset at `c = 0` and grows by one slab per point, so after
  point `t` it holds the sum of the slabs `(b, 0), …, (b, c)` (`acc`, `scratch_eq`: by induction on the point); at `c = 3`
  that is the whole row `b`: `∑_c slab p g b c` (`acc_row`), and it is what the body copies to the output block
  (`out_eq`).
-/
import proofs.«180781_j53489522705022_2_alg».proof.Proof.Pieces
import proofs.«180781_j53489522705022_2_alg».proof.Proof.BlockValue
import proofs.«180781_j53489522705022_2_alg».proof.Proof.Spec
import Idealize.ShloMosaic.Lib.Pipeline.Value
import Idealize.ShloMosaic.Lib.ValueIdx

noncomputable section

open scoped BigOperators

/-! ## The running sum, as a function of the point's number -/

namespace Cert.Crps

/-- The slab of point `n` of the 8 × 4 grid (zero past the grid). -/
def slabAt (p : Preds) (g : Obs) (n : ℕ) : EReal :=
  if h : n < 32 then slab p g ⟨n / 4, by omega⟩ ⟨n % 4, Nat.mod_lt _ (by decide)⟩ else 0

/-- What the accumulator holds after point `n`: reset at the first point of each row of the grid. -/
def acc (p : Preds) (g : Obs) : ℕ → EReal
  | 0 => 0 + slabAt p g 0
  | n + 1 => if (n + 1) % 4 = 0 then 0 + slabAt p g (n + 1) else acc p g n + slabAt p g (n + 1)

theorem acc_start (p : Preds) (g : Obs) (n : ℕ) (h : n % 4 = 0) : acc p g n = 0 + slabAt p g n := by
  cases n with
  | zero => rfl
  | succ k => exact if_pos h

theorem acc_step (p : Preds) (g : Obs) (n : ℕ) (hn : n ≠ 0) (h : ¬n % 4 = 0) : acc p g n = acc p g (n - 1) + slabAt p g n := by
  cases n with
  | zero => exact absurd rfl hn
  | succ k => exact if_neg h

theorem slabAt_eq (p : Preds) (g : Obs) (b : Fin 8) (c : Fin 4) (n : ℕ) (hn : n = 4 * b.val + c.val) :
    slabAt p g n = slab p g b c := by
  have hb := b.isLt
  have hc := c.isLt
  unfold slabAt
  rw [dif_pos (by omega)]
  have e0 : (⟨n / 4, by omega⟩ : Fin 8) = b := Fin.ext (by show n / 4 = b.val; omega)
  have e1 : (⟨n % 4, Nat.mod_lt _ (by decide)⟩ : Fin 4) = c := Fin.ext (by show n % 4 = c.val; omega)
  rw [e0, e1]

/-- After the last point of row `b` the accumulator holds the row's four slabs. -/
theorem acc_row (p : Preds) (g : Obs) (b : Fin 8) : acc p g (4 * b.val + 3) = ∑ c : Fin 4, slab p g b c := by
  have h3 : acc p g (4 * b.val + 3) = acc p g (4 * b.val + 2) + slabAt p g (4 * b.val + 3) :=
    acc_step p g _ (by omega) (by omega)
  have h2 : acc p g (4 * b.val + 2) = acc p g (4 * b.val + 1) + slabAt p g (4 * b.val + 2) :=
    acc_step p g _ (by omega) (by omega)
  have h1 : acc p g (4 * b.val + 1) = acc p g (4 * b.val) + slabAt p g (4 * b.val + 1) :=
    acc_step p g _ (by omega) (by omega)
  have h0 : acc p g (4 * b.val) = 0 + slabAt p g (4 * b.val) := acc_start p g _ (by omega)
  rw [h3, h2, h1, h0, zero_add, slabAt_eq p g b 0 (4 * b.val) (Nat.add_zero _).symm, slabAt_eq p g b 1 (4 * b.val + 1) rfl,
    slabAt_eq p g b 2 (4 * b.val + 2) rfl, slabAt_eq p g b 3 (4 * b.val + 3) rfl, Fin.sum_univ_four]

end Cert.Crps

/-! ## The kernel's accumulator is that running sum -/

namespace Cert.KernelIdeal.Accum

open Cert.KernelIdeal Cert.KernelIdeal.Gen Cert.KernelIdeal.Pieces Cert.KernelIdeal.BlockValue
open Idealize.ShloMosaic Idealize.ShloMosaic.TcCoe Idealize.SL.Sem Idealize.ShloMosaic.ValueIdx

variable (m : (ℓ : Loc nD τ sig) → Buf (Elt Ideal) ℓ)

/-- The two argument arrays, as the score's predictions and observations. -/
abbrev preds (c : Dev nD) : Cert.Crps.Preds := m ((c : Thread nD τ).loc main_arg0)
abbrev obs (c : Dev nD) : Cert.Crps.Obs := m ((c : Thread nD τ).loc main_arg1)

/-- The printed index maps over the grid: point `t` is row `t / 4`, column `t % 4`. -/
theorem idx_facts : ∀ t : Fin cfg0.N,
    win0_0.index t (0 : Fin 5) = t.val / 4 ∧ win0_0.index t (1 : Fin 5) = 0 ∧ win0_0.index t (2 : Fin 5) = t.val % 4
    ∧ win0_0.index t (3 : Fin 5) = 0 ∧ win0_0.index t (4 : Fin 5) = 0
    ∧ win0_1.index t (0 : Fin 4) = t.val / 4 ∧ win0_1.index t (1 : Fin 4) = t.val % 4
    ∧ win0_1.index t (2 : Fin 4) = 0 ∧ win0_1.index t (3 : Fin 4) = 0
    ∧ win0_2.index t (0 : Fin 3) = t.val / 4 ∧ win0_2.index t (1 : Fin 3) = 0 ∧ win0_2.index t (2 : Fin 3) = 0 :=
  (by decide +kernel : ∀ t : Fin grid0.N, _)

/-- The slab of predictions loaded at point `(b, cc)` is `p[b, ·, cc, ·, ·]`. -/
theorem pred_block (c : Dev nD) (t : Fin cfg0.N) (b : Fin 8) (cc : Fin 4) (hb : b.val = t.val / 4) (hc : cc.val = t.val % 4)
    (n : Fin 16) (r : Fin 128) (s : Fin 256) :
    (iblk m c 0 t : Vec Ideal S1x16x1x128x256 .f32) (ix5 (0 : Fin 1) n (0 : Fin 1) r s) = preds m c (ix5 b n cc r s) := by
  obtain ⟨e0, e1, e2, e3, e4, -⟩ := idx_facts t
  unfold iblk
  rw [View.read_apply]
  show m ((c : Thread nD τ).loc main_arg0) (((cfg0.win 0).blk t).view.emb (ix5 (0 : Fin 1) n (0 : Fin 1) r s)) = _
  refine congrArg (m ((c : Thread nD τ).loc main_arg0)) (funext fun a => Fin.ext ?_)
  match a with
  | ⟨0, _⟩ => show win0_0.index t (0 : Fin 5) * 1 + 1 * 0 = b.val; omega
  | ⟨1, _⟩ => show win0_0.index t (1 : Fin 5) * 16 + 1 * n.val = n.val; omega
  | ⟨2, _⟩ => show win0_0.index t (2 : Fin 5) * 1 + 1 * 0 = cc.val; omega
  | ⟨3, _⟩ => show win0_0.index t (3 : Fin 5) * 128 + 1 * r.val = r.val; omega
  | ⟨4, _⟩ => show win0_0.index t (4 : Fin 5) * 256 + 1 * s.val = s.val; omega

/-- The slab of observations loaded at point `(b, cc)` is `g[b, cc, ·, ·]`. -/
theorem obs_block (c : Dev nD) (t : Fin cfg0.N) (b : Fin 8) (cc : Fin 4) (hb : b.val = t.val / 4) (hc : cc.val = t.val % 4)
    (r : Fin 128) (s : Fin 256) :
    (iblk m c 1 t : Vec Ideal S1x1x128x256 .f32) (ix4 (0 : Fin 1) (0 : Fin 1) r s) = obs m c (ix4 b cc r s) := by
  obtain ⟨-, -, -, -, -, e0, e1, e2, e3, -⟩ := idx_facts t
  unfold iblk
  rw [View.read_apply]
  show m ((c : Thread nD τ).loc main_arg1) (((cfg0.win 1).blk t).view.emb (ix4 (0 : Fin 1) (0 : Fin 1) r s)) = _
  refine congrArg (m ((c : Thread nD τ).loc main_arg1)) (funext fun a => Fin.ext ?_)
  match a with
  | ⟨0, _⟩ => show win0_1.index t (0 : Fin 4) * 1 + 1 * 0 = b.val; omega
  | ⟨1, _⟩ => show win0_1.index t (1 : Fin 4) * 1 + 1 * 0 = cc.val; omega
  | ⟨2, _⟩ => show win0_1.index t (2 : Fin 4) * 128 + 1 * r.val = r.val; omega
  | ⟨3, _⟩ => show win0_1.index t (3 : Fin 4) * 256 + 1 * s.val = s.val; omega

/-- The number the body adds at point `t` is the slab of that point. -/
theorem block_slabAt (c : Dev nD) (t : Fin cfg0.N) (u v : Fin 1) :
    blockVal (iblk m c 0 t : Vec Ideal S1x16x1x128x256 .f32) (iblk m c 1 t : Vec Ideal S1x1x128x256 .f32) (ix2 u v)
      = Cert.Crps.slabAt (preds m c) (obs m c) t.val := by
  have hN : t.val < 32 := lt_of_lt_of_eq t.isLt (show cfg0.N = 32 from N_0)
  refine (blockVal_apply _ _ u v).trans ?_
  rw [Cert.Crps.slabAt_eq (preds m c) (obs m c) ⟨t.val / 4, by omega⟩ ⟨t.val % 4, Nat.mod_lt _ (by decide)⟩ t.val
    (by show t.val = 4 * (t.val / 4) + t.val % 4; omega)]
  unfold Cert.Crps.slab Cert.Crps.pixel
  refine Finset.sum_congr rfl fun r _ => Finset.sum_congr rfl fun s _ => ?_
  exact congrArg₂ Cert.Crps.cell (funext fun n => pred_block m c t _ _ rfl rfl n r s) (obs_block m c t _ _ rfl rfl r s)

/-- The store of the accumulator: the value read plus the slab's number. -/
theorem pay2_apply (bv xs : FVec Ideal S1x1 .f32) (u v : Fin 1) : k0_pay2 bv xs (ix2 u v) = xs (ix2 u v) + bv (ix2 u v) := by
  unfold k0_pay2
  rw [shapeCast_self]
  rfl

/-- The reset: zero. -/
theorem pay1_apply (u v : Fin 1) : k0_pay1 (F := Ideal) (ix2 u v) = 0 := by
  unfold k0_pay1
  rw [shapeCast_self]
  exact Ideal.ofBits_zero_f32

/-- The copy to the output block keeps the number. -/
theorem pay3_apply (xs : FVec Ideal S1x1 .f32) (u v w : Fin 1) : k0_pay3 xs (ix3 u v w) = xs (ix2 (0 : Fin 1) (0 : Fin 1)) := by
  unfold k0_pay3
  exact Cert.Sums.shapeCast_11_111_apply xs _ u v w

/-- At the first point of a row: zero plus the slab. -/
theorem stepA (c : Dev nD) (t : Fin cfg0.N) (h0 : t.val % 4 = 0) (h1 : ¬t.val % 4 = 3) (u v : Fin 1) :
    (outsAt0 m c t.val t.isLt).2 (ix2 u v) = 0 + Cert.Crps.slabAt (preds m c) (obs m c) t.val :=
  (congrArg (fun q : Vec Ideal S1x1x1 .f32 × Vec Ideal S1x1 .f32 => q.2 (ix2 u v)) (outsAt0_A m c t h0 h1)).trans
    ((congrFun (sout_A c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk m c 0 t) (iblk m c 1 t)) (ix2 u v)).trans
      ((pay2_apply _ _ u v).trans (congrArg₂ (· + ·) (pay1_apply u v) (block_slabAt m c t u v))))

/-- At a middle point: what the point before left plus the slab. -/
theorem stepB (c : Dev nD) (t : Fin cfg0.N) (h0 : ¬t.val % 4 = 0) (h1 : ¬t.val % 4 = 3) (u v : Fin 1) :
    (outsAt0 m c t.val t.isLt).2 (ix2 u v)
      = (outsAt0 m c (t.val - 1) (Nat.lt_of_le_of_lt (Nat.sub_le _ _) t.isLt)).2 (ix2 u v) + Cert.Crps.slabAt (preds m c) (obs m c) t.val :=
  (congrArg (fun q : Vec Ideal S1x1x1 .f32 × Vec Ideal S1x1 .f32 => q.2 (ix2 u v)) (outsAt0_B m c t h0 h1)).trans
    ((congrFun (sout_B c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2) (ix2 u v)).trans
      ((pay2_apply _ _ u v).trans (congrArg (_ + ·) (block_slabAt m c t u v))))

/-- At the last point of a row: the same, -/
theorem stepC (c : Dev nD) (t : Fin cfg0.N) (h0 : ¬t.val % 4 = 0) (h1 : t.val % 4 = 3) (u v : Fin 1) :
    (outsAt0 m c t.val t.isLt).2 (ix2 u v)
      = (outsAt0 m c (t.val - 1) (Nat.lt_of_le_of_lt (Nat.sub_le _ _) t.isLt)).2 (ix2 u v) + Cert.Crps.slabAt (preds m c) (obs m c) t.val :=
  (congrArg (fun q : Vec Ideal S1x1x1 .f32 × Vec Ideal S1x1 .f32 => q.2 (ix2 u v)) (outsAt0_C m c t h0 h1)).trans
    ((congrFun (sout_C c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2) (ix2 u v)).trans
      ((pay2_apply _ _ u v).trans (congrArg (_ + ·) (block_slabAt m c t u v))))

/-- and the output block holds what the accumulator holds. -/
theorem stepC_out (c : Dev nD) (t : Fin cfg0.N) (h0 : ¬t.val % 4 = 0) (h1 : t.val % 4 = 3) (u v w : Fin 1) :
    (outsAt0 m c t.val t.isLt).1 (ix3 u v w) = (outsAt0 m c t.val t.isLt).2 (ix2 (0 : Fin 1) (0 : Fin 1)) :=
  (congrArg (fun q : Vec Ideal S1x1x1 .f32 × Vec Ideal S1x1 .f32 => q.1 (ix3 u v w)) (outsAt0_C m c t h0 h1)).trans
    ((congrFun (out_C c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2) (ix3 u v w)).trans
      ((pay3_apply _ u v w).trans
        ((congrFun (sout_C c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2) (ix2 (0 : Fin 1) (0 : Fin 1))).symm.trans
          (congrArg (fun q : Vec Ideal S1x1x1 .f32 × Vec Ideal S1x1 .f32 => q.2 (ix2 (0 : Fin 1) (0 : Fin 1))) (outsAt0_C m c t h0 h1)).symm)))

/-- After point `n` the accumulator holds the running sum. -/
theorem scratch_eq (c : Dev nD) : ∀ (n : ℕ) (h : n < cfg0.N) (u v : Fin 1),
    (outsAt0 m c n h).2 (ix2 u v) = Cert.Crps.acc (preds m c) (obs m c) n
  | 0, h, u, v => (stepA m c ⟨0, h⟩ (Nat.zero_mod _) (by show ¬0 % 4 = 3; decide) u v).trans
      (Cert.Crps.acc_start _ _ 0 (Nat.zero_mod _)).symm
  | n + 1, h, u, v => by
    by_cases h0 : (n + 1) % 4 = 0
    · have h1 : ¬(n + 1) % 4 = 3 := by omega
      exact (stepA m c ⟨n + 1, h⟩ h0 h1 u v).trans (Cert.Crps.acc_start _ _ _ h0).symm
    · rw [Cert.Crps.acc_step _ _ (n + 1) (Nat.succ_ne_zero n) h0]
      show _ = Cert.Crps.acc (preds m c) (obs m c) n + _
      rw [← scratch_eq c n (Nat.lt_of_succ_lt h) u v]
      by_cases h1 : (n + 1) % 4 = 3
      · exact stepC m c ⟨n + 1, h⟩ h0 h1 u v
      · exact stepB m c ⟨n + 1, h⟩ h0 h1 u v

/-- At the last point of row `b` the output block holds the row's four slabs. -/
theorem out_eq (c : Dev nD) (t : Fin cfg0.N) (h3 : t.val % 4 = 3) (b : Fin 8) (hb : b.val = t.val / 4) (u v w : Fin 1) :
    (outsAt0 m c t.val t.isLt).1 (ix3 u v w) = ∑ cc : Fin 4, Cert.Crps.slab (preds m c) (obs m c) b cc := by
  rw [stepC_out m c t (by omega) h3 u v w, scratch_eq m c t.val t.isLt 0 0,
    show t.val = 4 * b.val + 3 from by omega]
  exact Cert.Crps.acc_row _ _ b

/-- The same at any index of the one-entry block. -/
theorem out_eq_idx (c : Dev nD) (t : Fin cfg0.N) (h3 : t.val % 4 = 3) (b : Fin 8) (hb : b.val = t.val / 4) (y : S1x1x1.Idx) :
    (outsAt0 m c t.val t.isLt).1 y = ∑ cc : Fin 4, Cert.Crps.slab (preds m c) (obs m c) b cc := by
  rw [eq_ix3 y]
  exact out_eq m c t h3 b hb _ _ _

end Cert.KernelIdeal.Accum

end
-- ==== Proof.KernelValue.lean ====
/-
  What the kernel's program returns.

  The output array `[8, 1, 1]` is written back once per row `b` of the grid, after the row's last point, with the
  accumulator's number: the sum of the four slabs of row `b` (`rowOf`). The eight write-backs cover the array, so after
  the region it holds `b ↦ ∑_c slab p g b c` (`final`). The two host lines after the region sum those eight numbers
  from zero and divide by 2²⁰ (`result`); on the extended reals that is the mean score `Cert.Crps.total`
  (`result_eq`).
-/
import proofs.«180781_j53489522705022_2_alg».proof.Proof.Accumulate
import proofs.«180781_j53489522705022_2_alg».proof.Proof.LibSums
import Idealize.ShloMosaic.Lib.Pipeline.Value
import Idealize.ShloMosaic.Lib.StableHlo.Run
import Idealize.ShloMosaic.PureOps.Ideal.Laws

noncomputable section

open scoped BigOperators

namespace Cert.KernelIdeal.KValue

open Cert.KernelIdeal Cert.KernelIdeal.Gen Cert.KernelIdeal.Accum
open Idealize.ShloMosaic Idealize.ShloMosaic.TcCoe Idealize.SL.Sem Idealize.ShloMosaic.ValueIdx Idealize.ShloMosaic.StableHlo
open Idealize.ShloMosaic.Pipeline (Dat)

variable (m : (ℓ : Loc nD τ sig) → Buf (Elt Ideal) ℓ) (ρ : Dev nD → PrngReg)

/-- Row `k`'s total: its four slabs (zero past the eight rows). -/
def rowOf (p : Cert.Crps.Preds) (g : Cert.Crps.Obs) (k : ℕ) : EReal :=
  if h : k < 8 then ∑ cc : Fin 4, Cert.Crps.slab p g ⟨k, h⟩ cc else 0

/-- The row totals as an `[8, 1, 1]` array: at `(b, 0, 0)` row `b`'s total. -/
def rows (p : Cert.Crps.Preds) (g : Cert.Crps.Obs) : S8x1x1.Idx → EReal := fun j => rowOf p g (j 0).val

/-- The output array after the region. -/
def G (c : Dev nD) : Buf (Elt Ideal) ((c : Thread nD τ).loc main_v0) := rows (preds m c) (obs m c)

/-- What the last point of a row writes back is that row's entry of `G`. -/
theorem flushed_eq (c : Dev nD) (t : Fin cfg0.N) (hf : (cfg0.win 2).flush t = true) :
    (dats m 0 c).flushed 2 t = ((cfg0.win 2).blk t).view.read (Elt Ideal) (G m c) := by
  have h3 : t.val % 4 = 3 := (flush0_2 t).mp hf
  have hN : t.val < 32 := lt_of_lt_of_eq t.isLt (show cfg0.N = 32 from N_0)
  obtain ⟨-, -, -, -, -, -, -, -, -, e0, e1, e2⟩ := idx_facts t
  show (cfg0.win 2).cut (grid0.coords t) ((dats m 0 c).after 2 t) = _
  rw [after0_2]
  funext y
  show (outsAt0 m c t.val t.isLt).1 y = rowOf (preds m c) (obs m c) ((((cfg0.win 2).blk t).view.emb y) 0).val
  have hy : (y 0).val < 1 := (y 0).isLt
  have he : ((((cfg0.win 2).blk t).view.emb y) 0).val = t.val / 4 := by
    show win0_2.index t (0 : Fin 3) * 1 + 1 * (y 0).val = t.val / 4
    omega
  rw [he, out_eq_idx m c t h3 ⟨t.val / 4, by omega⟩ rfl y]
  unfold rowOf
  rw [dif_pos (by omega)]

/-- Every entry of the output array is written back by the last point of its row. -/
theorem cover (i : S8x1x1.Idx) : ∃ t : Fin cfg0.N, (cfg0.win 2).flush t = true ∧ i ∈ ((cfg0.win 2).blk t).view.set := by
  have hi0 : (i 0).val < 8 := (i 0).isLt
  have hi1 : (i 1).val < 1 := (i 1).isLt
  have hi2 : (i 2).val < 1 := (i 2).isLt
  have hN : cfg0.N = 32 := N_0
  obtain ⟨t, ht⟩ : ∃ t : Fin cfg0.N, t.val = 4 * (i 0).val + 3 := ⟨⟨4 * (i 0).val + 3, by omega⟩, rfl⟩
  obtain ⟨-, -, -, -, -, -, -, -, -, e0, e1, e2⟩ := idx_facts t
  refine ⟨t, (flush0_2 t).mpr (by omega), ?_⟩
  show i ∈ ((View.whole main_v0).slice (win0_2.rect t)).set
  rw [View.set_slice_whole, Rect.mem_set_unit]
  intro a
  match a with
  | ⟨0, _⟩ =>
    show win0_2.index t (0 : Fin 3) * 1 ≤ (i 0).val ∧ (i 0).val < win0_2.index t (0 : Fin 3) * 1 + 1
    omega
  | ⟨1, _⟩ =>
    show win0_2.index t (1 : Fin 3) * 1 ≤ (i 1).val ∧ (i 1).val < win0_2.index t (1 : Fin 3) * 1 + 1
    omega
  | ⟨2, _⟩ =>
    show win0_2.index t (2 : Fin 3) * 1 ≤ (i 2).val ∧ (i 2).val < win0_2.index t (2 : Fin 3) * 1 + 1
    omega

/-- So after the region the output array holds the eight row totals. -/
theorem final (c : Dev nD) : (dats m 0 c).arrAt 2 cfg0.N = G m c :=
  (dats m 0 c).arrAt_eq_of_cover 2 (G m c) (fun t hf => flushed_eq m c t hf) cover

/-- The two host lines after the region, applied to the row totals: their sum from zero, over 2²⁰. -/
def result (c : Dev nD) : Buf (Elt Ideal) ((c : Thread nD τ).loc main_v2) :=
  Host.divf (F := Ideal) (Host.reduceAdd (F := Ideal) (G m c) (constant (F := Ideal) S_ .f32 0x00000000#32) reducesTo_S8x1x1_S_d0_1_2 h_S_)
    (constant (F := Ideal) S_ .f32 0x49800000#32)

/-- What @main's last line leaves in the result buffer. -/
theorem tail_eq (c : Dev nD) : Pipeline.afterTail₀ cfgs (dats m) 0 (V0 m) [hostOps1] c main_v2 = result m c := by
  unfold Pipeline.afterTail₀
  show StableHlo.after hostOps1 _ (Proc.devRef .tc main_v2) = _
  after_results
  rw [show Pipeline.withArrays (cfgs 0).spec c (V0 m c) (fun w => (dats m 0 c).arrAt w (cfgs 0).N) (Proc.devRef .tc main_v0) = G m c from
    (Pipeline.withArrays_arr spec0 launch0.win.arr_inj c _ _ 2).trans (final m c)]
  rfl

/-- The run of the kernel's program: the result buffer ends at `result`, the arguments unchanged. -/
theorem run : θ_run defs (onTc (τ := τ) (main (F := Ideal))) ⟨m, fun _ => 0, ρ⟩ fun r => ∀ c : Dev nD,
      r.2.mem ((c.tc : Thread nD τ).loc main_v2) = result m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨((h c).2 main_v2 (Pipeline.mem_restRefs_of main_v2 rfl (by decide))).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

/-- On the extended reals the result is the mean score of the two argument arrays. -/
theorem result_eq (c : Dev nD) : result m c = fun _ => Cert.Crps.total (preds m c) (obs m c) := by
  funext i
  have hsum : Host.reduceAdd (F := Ideal) (rows (preds m c) (obs m c)) (constant (F := Ideal) S_ .f32 0x00000000#32) reducesTo_S8x1x1_S_d0_1_2 h_S_ i
      = Ideal.ofBits .f32 0x00000000#32 + ∑ j : S8x1x1.Idx, rows (preds m c) (obs m c) j := by
    simp only [Host.reduceAdd, Ideal.hostReduceAdd_def]
    exact Ideal.hostReduceAdd_total reducesTo_S8x1x1_S_d0_1_2 (fun b => b.elim0) (rows (preds m c) (obs m c)) _ i
  show Ideal.div (Host.reduceAdd (F := Ideal) (rows (preds m c) (obs m c)) (constant (F := Ideal) S_ .f32 0x00000000#32) reducesTo_S8x1x1_S_d0_1_2 h_S_ i)
    (Ideal.ofBits .f32 0x49800000#32) = _
  rw [hsum, Ideal.ofBits_zero_f32, zero_add, Cert.Sums.sum_idx3]
  unfold Cert.Crps.total
  refine congrArg (fun z => Ideal.div z _) ?_
  refine Finset.sum_congr rfl fun b _ => ?_
  rw [Fin.sum_univ_one, Fin.sum_univ_one]
  show rowOf (preds m c) (obs m c) b.val = _
  unfold rowOf
  rw [dif_pos b.isLt]

end Cert.KernelIdeal.KValue

end
-- ==== Proof.lean ====
/-
  Two programs for the continuous ranked probability score of an ensemble forecast compute one function.

  For predictions p[b, n, c, h, w] (16 ensemble members n) and observations g[b, c, h, w] the score of a pixel is
      (∑ₙ |pₙ − g|) / 16 − (∑ᵢ ∑ⱼ |pᵢ − pⱼ|) / 480,
  and the result is its mean over the 2²⁰ pixels (Proof/Spec.lean: `Cert.Crps.total`).

  The reference forms the whole arrays of distances, sums them over the ensemble axes, and takes the mean over all
  pixels at once (Proof/RefIsSpec.lean). The kernel walks an 8 × 4 grid of slabs (b, c): on each it sums the pixel
  scores of the slab — the pair term member by member, sixteen partial sums added in order — into a one-entry
  accumulator that is reset at c = 0 and copied out at c = 3 (Proof/Pieces.lean, Proof/BlockValue.lean,
  Proof/Accumulate.lean); the eight row totals are then summed and divided by 2²⁰ on the host
  (Proof/KernelValue.lean). Both are the same finite sums of the same terms, grouped and ordered differently; on the
  extended reals addition is commutative and associative whatever the entries, and 0 + x = x, so the two results are
  equal with no use of the finiteness of the inputs. The divisors 16, 480 and 2²⁰ are the same f32 words on both
  sides and are never evaluated.

  The three frame claims are the generated frame certificates (the reference's is its generated run with the result
  dropped); the idealization rewrote nothing, so `preserves` is `True`.
-/
import proofs.«180781_j53489522705022_2_alg».proof.Defs
import proofs.«180781_j53489522705022_2_alg».proof.Proof.Gen.Kernel
import proofs.«180781_j53489522705022_2_alg».proof.Proof.Gen.Kernel.Skeleton
import proofs.«180781_j53489522705022_2_alg».proof.Proof.Gen.Kernel.Launch
import proofs.«180781_j53489522705022_2_alg».proof.Proof.Gen.Kernel.Points
import proofs.«180781_j53489522705022_2_alg».proof.Proof.Gen.Kernel.Frame
import proofs.«180781_j53489522705022_2_alg».proof.Proof.Gen.KernelIdeal
import proofs.«180781_j53489522705022_2_alg».proof.Proof.Gen.KernelIdeal.Skeleton
import proofs.«180781_j53489522705022_2_alg».proof.Proof.Gen.KernelIdeal.Launch
import proofs.«180781_j53489522705022_2_alg».proof.Proof.Gen.KernelIdeal.Points
import proofs.«180781_j53489522705022_2_alg».proof.Proof.Gen.KernelIdeal.Frame
import proofs.«180781_j53489522705022_2_alg».proof.Proof.Gen.ReferenceIdeal
import proofs.«180781_j53489522705022_2_alg».proof.Proof.Gen.ReferenceIdeal.Run
import proofs.«180781_j53489522705022_2_alg».proof.Proof.Gen.ReferenceIdeal.Read
import proofs.«180781_j53489522705022_2_alg».proof.Proof.Gen.Pre_finite_inputs
import proofs.«180781_j53489522705022_2_alg».proof.Proof.RefIsSpec
import proofs.«180781_j53489522705022_2_alg».proof.Proof.KernelValue
import Idealize.ShloMosaic.Adequacy
import Idealize.ShloMosaic.Init

noncomputable section

namespace Cert.Proof

open Idealize.ShloMosaic Idealize.SL.Sem Cert.Kernel

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From arguments that agree, the kernel's program ends with its result buffer at the mean score of its arguments,
    and so does the reference. -/
theorem algebraic : Cert.algebraic_KernelIdeal_ReferenceIdeal := by
  intro m ρ m' ρ' _ hagree
  refine ⟨fun c => Cert.KernelIdeal.KValue.result m c, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v18_eq, Cert.ReferenceIdeal.RefValue.result_eq, (hagree c).1, (hagree c).2]
  exact (Cert.KernelIdeal.KValue.result_eq m c).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
